-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256x128 .f32) (main_arg6 : FVec F S128 .f32) (main_arg7 : FVec F S128x128 .f32) (main_arg8 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x256 : Shape := ⟨2, ![1, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩

abbrev nBuf : Space → Nat
  | .hbm => 71
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x256, .f32⟩
  | .hbm, ⟨49, _⟩ => ⟨S100000x128, .f32⟩
  | .hbm, ⟨50, _⟩ => ⟨S100000x128, .bf16⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .bf16⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S128x128, .f32⟩
  | .hbm, ⟨66, _⟩ => ⟨S128x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S1x256, .f32⟩
  | .local _ .vmem, ⟨8, _⟩ => ⟨S256x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_v44_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_1) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_2) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S100000x256, .f32⟩
  | .hbm, ⟨52, _⟩ => ⟨S_, .f32⟩
  | .hbm, ⟨53, _⟩ => ⟨S100000x256, .f32⟩
  | .hbm, ⟨54, _⟩ => ⟨S100000x256, .f32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S128x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, read at its exit.

  The program is five stretches of host operations, the fused graph-convolution region, one more stretch, and the
  head region.  Launched from any memory with zero counters it terminates without a fault, and every buffer that is
  not a staging buffer ends holding the contents at the head region's exit: the fold of the host stretches and of
  the two regions' write-backs over the launch memory.  In particular the three result arrays end at what the head
  region's write-backs leave in its three output windows, and the argument arrays end as launched.
-/
import proofs.«121842_j23605140259107_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the head region's exit
    contents. -/
theorem run_exit : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The three result arrays are the head region's output windows 5, 6 and 7. -/
theorem run_results : θ_run defs (onTc (τ := τ) (main (F := F))) ⟨m, fun _ => 0, ρ⟩ (fun r => ∀ c : Dev nD,
      r.2.mem ((c.tc : Thread nD τ).loc main_v44_0) = (dat1 (V7 m ρ) c).arrAt 5 cfg1.N
      ∧ r.2.mem ((c.tc : Thread nD τ).loc main_v44_1) = (dat1 (V7 m ρ) c).arrAt 6 cfg1.N
      ∧ r.2.mem ((c.tc : Thread nD τ).loc main_v44_2) = (dat1 (V7 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨(h c _ (mem_uc main_v44_0 (by decide))).trans (W8_arr m ρ c 5),
       (h c _ (mem_uc main_v44_1 (by decide))).trans (W8_arr m ρ c 6),
       (h c _ (mem_uc main_v44_2 (by decide))).trans (W8_arr m ρ c 7),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)
    (run_exit m ρ)

end Cert.KernelIdeal.RunOut

end
-- ==== Proof.Layers.lean ====
/-
  The two dense layers of the graph network, entry by entry, on the extended reals.

  A node's row enters the first layer as the aggregated neighbour sum A(p, ·), is scaled by the node's in-degree
  factor cI(p), multiplied by the first weight matrix, shifted by the first bias, clamped below at zero, multiplied by
  the second weight matrix and scaled by the node's out-degree factor cO(p):

      fused(p, f) = ( sum_k  max( sum_d (A(p,d) * cI(p)) * W1(d,k) + b1(k), 0 ) * W2(k,f) ) * cO(p).

  The head takes the second aggregated sum, scales it by cI(p), adds the second bias and clamps at zero,

      hidden(p, f) = max( A(p,f) * cI(p) + b2(f), 0 ),

  and each of its two linear read-outs is the inner product of that row with a column of a weight matrix:

      head(p, j) = sum_f hidden(p,f) * Wt(f,j).

  Each formula is a function of ONE row p of its row-indexed operands: the same formula over a block of rows and over
  the whole array agree at rows that hold the same entries (the three transport lemmas at the end).  The degree
  factors come as columns [R, 1] and the biases as rows [1, n], the layouts in which both programs hold them.
-/
import Idealize.ShloMosaic.PureOps.Ideal
import Idealize.ShloMosaic.Lib.ValueIdx

noncomputable section

namespace Cert.GraphConv

open Idealize.ShloMosaic Idealize.ShloMosaic.ValueIdx
open scoped BigOperators

/-- The value of the all-zero word: the floor of both clamps. -/
abbrev floor32 : EReal := Ideal.ofBits .f32 0x00000000#32

/-- The fused layer at row `p`, column `f`. -/
def fusedAt {R : ℕ} (A : FVec Ideal ⟨2, ![R, 128]⟩ .f32) (cI cO : FVec Ideal ⟨2, ![R, 1]⟩ .f32)
    (W1 : FVec Ideal ⟨2, ![128, 256]⟩ .f32) (b1 : FVec Ideal ⟨2, ![1, 256]⟩ .f32)
    (W2 : FVec Ideal ⟨2, ![256, 128]⟩ .f32) (p : Fin R) (f : Fin 128) : EReal :=
  (∑ k : Fin 256, max ((∑ d : Fin 128, (A (ix2 p d) * cI (ix2 p (0 : Fin 1))) * W1 (ix2 d k)) + b1 (ix2 (0 : Fin 1) k)) floor32
      * W2 (ix2 k f)) * cO (ix2 p (0 : Fin 1))

/-- The head's hidden row at row `p`, column `f`. -/
def hiddenAt {R : ℕ} (A : FVec Ideal ⟨2, ![R, 128]⟩ .f32) (cI : FVec Ideal ⟨2, ![R, 1]⟩ .f32)
    (b2 : FVec Ideal ⟨2, ![1, 128]⟩ .f32) (p : Fin R) (f : Fin 128) : EReal :=
  max (A (ix2 p f) * cI (ix2 p (0 : Fin 1)) + b2 (ix2 (0 : Fin 1) f)) floor32

/-- One linear read-out of the hidden row at row `p`, column `j`. -/
def headAt {R : ℕ} (A : FVec Ideal ⟨2, ![R, 128]⟩ .f32) (cI : FVec Ideal ⟨2, ![R, 1]⟩ .f32)
    (b2 : FVec Ideal ⟨2, ![1, 128]⟩ .f32) (Wt : FVec Ideal ⟨2, ![128, 128]⟩ .f32) (p : Fin R) (j : Fin 128) : EReal :=
  ∑ f : Fin 128, hiddenAt A cI b2 p f * Wt (ix2 f j)

/-- The three as whole arrays. -/
def fused {R : ℕ} (A : FVec Ideal ⟨2, ![R, 128]⟩ .f32) (cI cO : FVec Ideal ⟨2, ![R, 1]⟩ .f32)
    (W1 : FVec Ideal ⟨2, ![128, 256]⟩ .f32) (b1 : FVec Ideal ⟨2, ![1, 256]⟩ .f32)
    (W2 : FVec Ideal ⟨2, ![256, 128]⟩ .f32) : FVec Ideal ⟨2, ![R, 128]⟩ .f32 :=
  fun i => fusedAt A cI cO W1 b1 W2 (i 0) (i 1)

def hidden {R : ℕ} (A : FVec Ideal ⟨2, ![R, 128]⟩ .f32) (cI : FVec Ideal ⟨2, ![R, 1]⟩ .f32)
    (b2 : FVec Ideal ⟨2, ![1, 128]⟩ .f32) : FVec Ideal ⟨2, ![R, 128]⟩ .f32 :=
  fun i => hiddenAt A cI b2 (i 0) (i 1)

def head {R : ℕ} (A : FVec Ideal ⟨2, ![R, 128]⟩ .f32) (cI : FVec Ideal ⟨2, ![R, 1]⟩ .f32)
    (b2 : FVec Ideal ⟨2, ![1, 128]⟩ .f32) (Wt : FVec Ideal ⟨2, ![128, 128]⟩ .f32) : FVec Ideal ⟨2, ![R, 128]⟩ .f32 :=
  fun i => headAt A cI b2 Wt (i 0) (i 1)

theorem fused_ix2 {R : ℕ} (A : FVec Ideal ⟨2, ![R, 128]⟩ .f32) (cI cO : FVec Ideal ⟨2, ![R, 1]⟩ .f32)
    (W1 : FVec Ideal ⟨2, ![128, 256]⟩ .f32) (b1 : FVec Ideal ⟨2, ![1, 256]⟩ .f32)
    (W2 : FVec Ideal ⟨2, ![256, 128]⟩ .f32) (p : Fin R) (f : Fin 128) :
    fused A cI cO W1 b1 W2 (ix2 p f) = fusedAt A cI cO W1 b1 W2 p f := rfl

theorem hidden_ix2 {R : ℕ} (A : FVec Ideal ⟨2, ![R, 128]⟩ .f32) (cI : FVec Ideal ⟨2, ![R, 1]⟩ .f32)
    (b2 : FVec Ideal ⟨2, ![1, 128]⟩ .f32) (p : Fin R) (f : Fin 128) :
    hidden A cI b2 (ix2 p f) = hiddenAt A cI b2 p f := rfl

theorem head_ix2 {R : ℕ} (A : FVec Ideal ⟨2, ![R, 128]⟩ .f32) (cI : FVec Ideal ⟨2, ![R, 1]⟩ .f32)
    (b2 : FVec Ideal ⟨2, ![1, 128]⟩ .f32) (Wt : FVec Ideal ⟨2, ![128, 128]⟩ .f32) (p : Fin R) (j : Fin 128) :
    head A cI b2 Wt (ix2 p j) = headAt A cI b2 Wt p j := rfl

/-! ## A row of a block is a row of the array -/

/-- The fused layer reads one row of `A`, `cI`, `cO`: rows that hold the same entries give the same value. -/
theorem fusedAt_row {R R' : ℕ} (A : FVec Ideal ⟨2, ![R, 128]⟩ .f32) (cI cO : FVec Ideal ⟨2, ![R, 1]⟩ .f32)
    (A' : FVec Ideal ⟨2, ![R', 128]⟩ .f32) (cI' cO' : FVec Ideal ⟨2, ![R', 1]⟩ .f32)
    (W1 : FVec Ideal ⟨2, ![128, 256]⟩ .f32) (b1 : FVec Ideal ⟨2, ![1, 256]⟩ .f32)
    (W2 : FVec Ideal ⟨2, ![256, 128]⟩ .f32) (r : Fin R) (p : Fin R') (f : Fin 128)
    (hA : ∀ d : Fin 128, A (ix2 r d) = A' (ix2 p d)) (hI : cI (ix2 r (0 : Fin 1)) = cI' (ix2 p (0 : Fin 1)))
    (hO : cO (ix2 r (0 : Fin 1)) = cO' (ix2 p (0 : Fin 1))) :
    fusedAt A cI cO W1 b1 W2 r f = fusedAt A' cI' cO' W1 b1 W2 p f := by
  unfold fusedAt
  simp only [hA, hI, hO]

theorem hiddenAt_row {R R' : ℕ} (A : FVec Ideal ⟨2, ![R, 128]⟩ .f32) (cI : FVec Ideal ⟨2, ![R, 1]⟩ .f32)
    (A' : FVec Ideal ⟨2, ![R', 128]⟩ .f32) (cI' : FVec Ideal ⟨2, ![R', 1]⟩ .f32)
    (b2 : FVec Ideal ⟨2, ![1, 128]⟩ .f32) (r : Fin R) (p : Fin R') (f : Fin 128)
    (hA : ∀ d : Fin 128, A (ix2 r d) = A' (ix2 p d)) (hI : cI (ix2 r (0 : Fin 1)) = cI' (ix2 p (0 : Fin 1))) :
    hiddenAt A cI b2 r f = hiddenAt A' cI' b2 p f := by
  unfold hiddenAt
  rw [hA, hI]

theorem headAt_row {R R' : ℕ} (A : FVec Ideal ⟨2, ![R, 128]⟩ .f32) (cI : FVec Ideal ⟨2, ![R, 1]⟩ .f32)
    (A' : FVec Ideal ⟨2, ![R', 128]⟩ .f32) (cI' : FVec Ideal ⟨2, ![R', 1]⟩ .f32)
    (b2 : FVec Ideal ⟨2, ![1, 128]⟩ .f32) (Wt : FVec Ideal ⟨2, ![128, 128]⟩ .f32) (r : Fin R) (p : Fin R') (j : Fin 128)
    (hA : ∀ d : Fin 128, A (ix2 r d) = A' (ix2 p d)) (hI : cI (ix2 r (0 : Fin 1)) = cI' (ix2 p (0 : Fin 1))) :
    headAt A cI b2 Wt r j = headAt A' cI' b2 Wt p j := by
  unfold headAt
  refine Finset.sum_congr rfl fun f _ => ?_
  rw [hiddenAt_row A cI A' cI' b2 r p f hA hI]

/-! ## The same, when the weights and the column are also only equal, not identical -/

theorem fusedAt_congr {R R' : ℕ} (A : FVec Ideal ⟨2, ![R, 128]⟩ .f32) (cI cO : FVec Ideal ⟨2, ![R, 1]⟩ .f32)
    (A' : FVec Ideal ⟨2, ![R', 128]⟩ .f32) (cI' cO' : FVec Ideal ⟨2, ![R', 1]⟩ .f32)
    (W1 W1' : FVec Ideal ⟨2, ![128, 256]⟩ .f32) (b1 b1' : FVec Ideal ⟨2, ![1, 256]⟩ .f32)
    (W2 W2' : FVec Ideal ⟨2, ![256, 128]⟩ .f32) (r : Fin R) (p : Fin R') (f f' : Fin 128)
    (hA : ∀ d : Fin 128, A (ix2 r d) = A' (ix2 p d)) (hI : cI (ix2 r (0 : Fin 1)) = cI' (ix2 p (0 : Fin 1)))
    (hO : cO (ix2 r (0 : Fin 1)) = cO' (ix2 p (0 : Fin 1))) (h1 : W1 = W1') (hb : b1 = b1') (h2 : W2 = W2') (hf : f = f') :
    fusedAt A cI cO W1 b1 W2 r f = fusedAt A' cI' cO' W1' b1' W2' p f' := by
  subst h1 hb h2 hf
  exact fusedAt_row A cI cO A' cI' cO' W1 b1 W2 r p f hA hI hO

theorem hiddenAt_congr {R R' : ℕ} (A : FVec Ideal ⟨2, ![R, 128]⟩ .f32) (cI : FVec Ideal ⟨2, ![R, 1]⟩ .f32)
    (A' : FVec Ideal ⟨2, ![R', 128]⟩ .f32) (cI' : FVec Ideal ⟨2, ![R', 1]⟩ .f32)
    (b2 b2' : FVec Ideal ⟨2, ![1, 128]⟩ .f32) (r : Fin R) (p : Fin R') (f f' : Fin 128)
    (hA : ∀ d : Fin 128, A (ix2 r d) = A' (ix2 p d)) (hI : cI (ix2 r (0 : Fin 1)) = cI' (ix2 p (0 : Fin 1)))
    (hb : b2 = b2') (hf : f = f') :
    hiddenAt A cI b2 r f = hiddenAt A' cI' b2' p f' := by
  subst hb hf
  exact hiddenAt_row A cI A' cI' b2 r p f hA hI

theorem headAt_congr {R R' : ℕ} (A : FVec Ideal ⟨2, ![R, 128]⟩ .f32) (cI : FVec Ideal ⟨2, ![R, 1]⟩ .f32)
    (A' : FVec Ideal ⟨2, ![R', 128]⟩ .f32) (cI' : FVec Ideal ⟨2, ![R', 1]⟩ .f32)
    (b2 b2' : FVec Ideal ⟨2, ![1, 128]⟩ .f32) (Wt Wt' : FVec Ideal ⟨2, ![128, 128]⟩ .f32) (r : Fin R) (p : Fin R') (j j' : Fin 128)
    (hA : ∀ d : Fin 128, A (ix2 r d) = A' (ix2 p d)) (hI : cI (ix2 r (0 : Fin 1)) = cI' (ix2 p (0 : Fin 1)))
    (hb : b2 = b2') (hW : Wt = Wt') (hj : j = j') :
    headAt A cI b2 Wt r j = headAt A' cI' b2' Wt' p j' := by
  subst hb hW hj
  exact headAt_row A cI A' cI' b2 Wt r p j hA hI

end Cert.GraphConv

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Payloads.lean ====
/-
  What the two kernel bodies compute, entry by entry, on the extended reals.

  The fused body multiplies its block of aggregated rows by the in-degree column, multiplies by the first weight
  matrix (a matrix product into a zero accumulator: an inner product per entry), adds the bias row, clamps at zero,
  multiplies by the second weight matrix and by the out-degree column.  The head body scales, shifts and clamps its
  block and takes two matrix products of the clamped block.  The changes of float format in between are the identity
  on the extended reals, a cast of a block to its own shape is the identity, a column broadcast reads its row's one
  entry and a row broadcast its column's.  So each stored value is the layer formula of `Layers` at the block's
  row and column.
-/
import proofs.«121842_j23605140259107_2_alg».proof.Proof.Gen.KernelIdeal.Skeleton
import proofs.«121842_j23605140259107_2_alg».proof.Proof.Layers
import proofs.«121842_j23605140259107_2_alg».proof.Proof.LibKeepdims
import proofs.«121842_j23605140259107_2_alg».proof.Proof.LibInnerProducts
import Idealize.ShloMosaic.Lib.ValueLayout
import Idealize.ShloMosaic.Lib.Pipeline.Value

noncomputable section

namespace Cert.KernelIdeal.Body

open Cert.KernelIdeal Cert.KernelIdeal.Gen Cert.GraphConv
open Idealize.ShloMosaic Idealize.ShloMosaic.ValueIdx
open scoped BigOperators

/-! ## The three matrix products are plain ones -/

theorem dotA_plain : dot_S2000x128_S128x256_S2000x256_1_0_0_1_n_n = DotDims.plain 2000 128 256 := rfl
theorem dotB_plain : dot_S2000x256_S256x128_S2000x128_1_0_0_1_n_n = DotDims.plain 2000 256 128 := rfl
theorem dotC_plain : dot_S2000x128_S128x128_S2000x128_1_0_0_1_n_n = DotDims.plain 2000 128 128 := rfl

theorem matmulA_apply (a : FVec Ideal S2000x128 .bf16) (w : FVec Ideal S128x256 .bf16) (p : Fin 2000) (k : Fin 256) :
    matmul dot_S2000x128_S128x256_S2000x256_1_0_0_1_n_n none a w (constant (F := Ideal) S2000x256 .f32 0x00000000#32) (ix2 p k)
      = ∑ d : Fin 128, a (ix2 p d) * w (ix2 d k) :=
  InnerProducts.matmul_zero_apply _ dotA_plain none a w p k

theorem matmulB_apply (a : FVec Ideal S2000x256 .bf16) (w : FVec Ideal S256x128 .bf16) (p : Fin 2000) (f : Fin 128) :
    matmul dot_S2000x256_S256x128_S2000x128_1_0_0_1_n_n none a w (constant (F := Ideal) S2000x128 .f32 0x00000000#32) (ix2 p f)
      = ∑ k : Fin 256, a (ix2 p k) * w (ix2 k f) :=
  InnerProducts.matmul_zero_apply _ dotB_plain none a w p f

theorem matmulC_apply (a : FVec Ideal S2000x128 .bf16) (w : FVec Ideal S128x128 .bf16) (p : Fin 2000) (j : Fin 128) :
    matmul dot_S2000x128_S128x128_S2000x128_1_0_0_1_n_n none a w (constant (F := Ideal) S2000x128 .f32 0x00000000#32) (ix2 p j)
      = ∑ f : Fin 128, a (ix2 p f) * w (ix2 f j) :=
  InnerProducts.matmul_zero_apply _ dotC_plain none a w p j

/-! ## The fused body -/

/-- The fused body's stored value at block row `r`, column `f`. -/
theorem fused_payload (x0 : FVec Ideal S2000x128 .f32) (x1 : FVec Ideal S2000x1 .f32) (x3 : FVec Ideal S128x256 .f32)
    (x4 : FVec Ideal S1x256 .f32) (x5 : FVec Ideal S256x128 .f32) (x2 : FVec Ideal S2000x1 .f32) (r : Fin 2000) (f : Fin 128) :
    k0_pay1 (F := Ideal) x0 x1 x3 x4 x5 x2 (ix2 r f) = fusedAt x0 x1 x2 x3 x4 x5 r f := by
  unfold k0_pay1 fusedAt
  simp only [mulf_apply, matmulB_apply, truncf_apply, maximumf_apply, addf_apply, matmulA_apply, shapeCast_self,
    LibKeepdims.broadcastTo_a1_ab_apply, broadcastTo_1b_ab_apply, broadcast_apply]
  rfl

/-- The same at any index of the block. -/
theorem fused_payload_at (x0 : FVec Ideal S2000x128 .f32) (x1 : FVec Ideal S2000x1 .f32) (x3 : FVec Ideal S128x256 .f32)
    (x4 : FVec Ideal S1x256 .f32) (x5 : FVec Ideal S256x128 .f32) (x2 : FVec Ideal S2000x1 .f32) (y : S2000x128.Idx) :
    k0_pay1 (F := Ideal) x0 x1 x3 x4 x5 x2 y = fusedAt x0 x1 x2 x3 x4 x5 (y 0) (y 1) := by
  exact (congrArg (k0_pay1 (F := Ideal) x0 x1 x3 x4 x5 x2) (eq_ix2 y)).trans (fused_payload x0 x1 x3 x4 x5 x2 (y 0) (y 1))

/-! ## The head body -/

/-- The clamped block at row `r`, column `f`. -/
theorem hidden_payload (x0 : FVec Ideal S2000x128 .f32) (x1 : FVec Ideal S2000x1 .f32) (x6 : FVec Ideal S1x128 .f32)
    (r : Fin 2000) (f : Fin 128) :
    k1_pay1 (F := Ideal) x0 x1 x6 (ix2 r f) = hiddenAt x0 x1 x6 r f := by
  unfold k1_pay1 hiddenAt
  simp only [mulf_apply, maximumf_apply, addf_apply, shapeCast_self,
    LibKeepdims.broadcastTo_a1_ab_apply, broadcastTo_1b_ab_apply, broadcast_apply]
  rfl

theorem hidden_payload_at (x0 : FVec Ideal S2000x128 .f32) (x1 : FVec Ideal S2000x1 .f32) (x6 : FVec Ideal S1x128 .f32)
    (y : S2000x128.Idx) : k1_pay1 (F := Ideal) x0 x1 x6 y = hiddenAt x0 x1 x6 (y 0) (y 1) := by
  exact (congrArg (k1_pay1 (F := Ideal) x0 x1 x6) (eq_ix2 y)).trans (hidden_payload x0 x1 x6 (y 0) (y 1))

/-- The first read-out at row `r`, column `j`. -/
theorem head_payload3 (x0 : FVec Ideal S2000x128 .f32) (x1 : FVec Ideal S2000x1 .f32) (x6 : FVec Ideal S1x128 .f32)
    (x13 : FVec Ideal S128x128 .f32) (r : Fin 2000) (j : Fin 128) :
    k1_pay3 (F := Ideal) x0 x1 x6 x13 (ix2 r j) = headAt x0 x1 x6 x13 r j := by
  unfold k1_pay3 k1_pay2 headAt
  simp only [matmulC_apply, truncf_apply, shapeCast_self, hidden_payload]

theorem head_payload3_at (x0 : FVec Ideal S2000x128 .f32) (x1 : FVec Ideal S2000x1 .f32) (x6 : FVec Ideal S1x128 .f32)
    (x13 : FVec Ideal S128x128 .f32) (y : S2000x128.Idx) :
    k1_pay3 (F := Ideal) x0 x1 x6 x13 y = headAt x0 x1 x6 x13 (y 0) (y 1) := by
  exact (congrArg (k1_pay3 (F := Ideal) x0 x1 x6 x13) (eq_ix2 y)).trans (head_payload3 x0 x1 x6 x13 (y 0) (y 1))

/-- The second read-out at row `r`, column `j`. -/
theorem head_payload4 (x0 : FVec Ideal S2000x128 .f32) (x1 : FVec Ideal S2000x1 .f32) (x6 : FVec Ideal S1x128 .f32)
    (x16 : FVec Ideal S128x128 .f32) (r : Fin 2000) (j : Fin 128) :
    k1_pay4 (F := Ideal) x0 x1 x6 x16 (ix2 r j) = headAt x0 x1 x6 x16 r j := by
  unfold k1_pay4 k1_pay2 headAt
  simp only [matmulC_apply, truncf_apply, shapeCast_self, hidden_payload]

theorem head_payload4_at (x0 : FVec Ideal S2000x128 .f32) (x1 : FVec Ideal S2000x1 .f32) (x6 : FVec Ideal S1x128 .f32)
    (x16 : FVec Ideal S128x128 .f32) (y : S2000x128.Idx) :
    k1_pay4 (F := Ideal) x0 x1 x6 x16 y = headAt x0 x1 x6 x16 (y 0) (y 1) := by
  exact (congrArg (k1_pay4 (F := Ideal) x0 x1 x6 x16) (eq_ix2 y)).trans (head_payload4 x0 x1 x6 x16 (y 0) (y 1))

end Cert.KernelIdeal.Body

end
-- ==== Proof.RegionFused.lean ====
/-
  The fused region's output array, as one function of the arrays the region finds.

  The region walks 50 blocks of 2000 rows.  At point t it reads rows 2000 t … 2000 t + 1999 of the aggregated
  array and of the two degree columns, and the two weight matrices and the bias row whole; the body leaves in the
  output block the fused layer of those rows (`Payloads`), which is written back to the same rows.  A row of a block
  is the row of the array at 2000 t + r, and the fused layer reads one row at a time, so the block written back at
  t is block t of the fused layer of the WHOLE arrays; the 50 blocks cover all 100000 rows, so that is what the
  output array holds after the region — whatever the entry contents `V` are.
-/
import proofs.«121842_j23605140259107_2_alg».proof.Proof.Gen.KernelIdeal.Frame
import proofs.«121842_j23605140259107_2_alg».proof.Proof.Payloads

set_option maxRecDepth 16384

noncomputable section

namespace Cert.KernelIdeal.FusedRegion

open Cert.KernelIdeal Cert.KernelIdeal.Gen Cert.KernelIdeal.Body Cert.GraphConv
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs move with the output, block t at point t,
    and every other block index is zero. -/
theorem index_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The whole-array function the output ends at. -/
abbrev result (c : Dev nD) : FVec Ideal S100000x128 .f32 :=
  fused (V c main_v26) (V c main_v12) (V c main_v10) (V c main_arg3) (V c main_v27) (V c main_arg5)

/-- A window whose one block is its whole array reads the array. -/
theorem whole3 (c : Dev nD) (t : Fin cfg0.N) : iblk0 V c 3 t = V c main_arg3 := by
  obtain ⟨-, -, -, -, -, -, -, -, e0, e1, -⟩ := index_facts t
  funext y
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem whole4 (c : Dev nD) (t : Fin cfg0.N) : iblk0 V c 4 t = V c main_v27 := by
  obtain ⟨-, -, -, -, -, -, -, -, -, -, e0, e1, -⟩ := index_facts t
  funext y
  show V c main_v27 (((cfg0.win 4).blk t).view.emb y) = V c main_v27 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem whole5 (c : Dev nD) (t : Fin cfg0.N) : iblk0 V c 5 t = V c main_arg5 := by
  obtain ⟨-, -, -, -, -, -, -, -, -, -, -, -, e0, e1⟩ := index_facts t
  funext y
  show V c main_arg5 (((cfg0.win 5).blk t).view.emb y) = V c main_arg5 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- What point `t` writes back is block `t` of the fused layer of the whole arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S2000x1) zero_offsets,
    View.ld_unit_zero (S := S128x256) zero_offsets, View.ld_unit_zero (S := S1x256) zero_offsets,
    View.ld_unit_zero (S := S256x128) zero_offsets]
  obtain ⟨e60, e61, e00, e01, e10, e11, e20, e21, -⟩ := index_facts t
  funext j
  show k0_pay1 (F := Ideal) (iblk0 V c 0 t) (iblk0 V c 1 t) (iblk0 V c 3 t) (iblk0 V c 4 t) (iblk0 V c 5 t) (iblk0 V c 2 t) j
    = result V c (((cfg0.win 6).blk t).view.emb j)
  refine (fused_payload_at (iblk0 V c 0 t) (iblk0 V c 1 t) (iblk0 V c 3 t) (iblk0 V c 4 t) (iblk0 V c 5 t) (iblk0 V c 2 t) j).trans ?_
  have hj0 : (j 0).val < 2000 := (j 0).isLt
  have hj1 : (j 1).val < 128 := (j 1).isLt
  refine fusedAt_congr _ _ _ _ _ _ _ _ _ _ _ _ _ _ _ _ (fun d => ?_) ?_ ?_ (whole3 V c t) (whole4 V c t) (whole5 V c t) (Fin.ext ?_)
  · show V c main_v26 (((cfg0.win 0).blk t).view.emb (ix2 (j 0) d)) = V c main_v26 (ix2 ((((cfg0.win 6).blk t).view.emb j) 0) d)
    refine congrArg _ (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * d.val = d.val; omega
  · show V c main_v12 (((cfg0.win 1).blk t).view.emb (ix2 (j 0) (0 : Fin 1))) = V c main_v12 (ix2 ((((cfg0.win 6).blk t).view.emb j) 0) (0 : Fin 1))
    refine congrArg _ (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 1 + 1 * 0 = 0; omega
  · show V c main_v10 (((cfg0.win 2).blk t).view.emb (ix2 (j 0) (0 : Fin 1))) = V c main_v10 (ix2 ((((cfg0.win 6).blk t).view.emb j) 0) (0 : Fin 1))
    refine congrArg _ (funext fun a => Fin.ext ?_)
    match a with
    | ⟨0, _⟩ => show win0_2.index t (0 : Fin 2) * 2000 + 1 * (j 0).val = win0_6.index t (0 : Fin 2) * 2000 + 1 * (j 0).val; omega
    | ⟨1, _⟩ => show win0_2.index t (1 : Fin 2) * 1 + 1 * 0 = 0; omega
  · show (j 1).val = win0_6.index t (1 : Fin 2) * 128 + 1 * (j 1).val
    omega

/-- An index is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v28).slice (win0_6.rect t)).set ↔ _
  rw [View.set_slice_whole, Rect.mem_set_unit]
  exact Iff.rfl

/-- Row r lies in the block of point r / 2000: the blocks cover the array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 50 := N_0
  have ht : (i 0).val / 2000 < grid0.N := by omega
  obtain ⟨e60, e61, -⟩ := index_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e61]; omega

/-- THE OUTPUT ARRAY after the region: the fused layer of the arrays the region found. -/
theorem final (c : Dev nD) : (dat0 V c).arrAt 6 cfg0.N = result V c :=
  (dat0 V c).arrAt_eq_of_cover 6 (result V c) (fun t _ => flushed_eq V c t) cover

end Cert.KernelIdeal.FusedRegion

end
-- ==== Proof.RegionHead.lean ====
/-
  The head region's three output arrays, each as one function of the arrays the region finds.

  The region walks 50 blocks of 2000 rows.  At point t it reads rows 2000 t … 2000 t + 1999 of the second aggregated
  array and of the in-degree column, and the bias row and the two (transposed) weight matrices whole; the body leaves
  the clamped rows in the first output block and their two linear read-outs in the other two (`Payloads`), each written
  back to the same rows of its array.  All three formulas read one row at a time, so the block written back at t is
  block t of the formula over the WHOLE arrays, and the 50 blocks cover all 100000 rows — whatever the entry
  contents `V` are.
-/
import proofs.«121842_j23605140259107_2_alg».proof.Proof.Gen.KernelIdeal.Frame
import proofs.«121842_j23605140259107_2_alg».proof.Proof.Payloads

set_option maxRecDepth 16384

noncomputable section

namespace Cert.KernelIdeal.HeadRegion

open Cert.KernelIdeal Cert.KernelIdeal.Gen Cert.KernelIdeal.Body Cert.GraphConv
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two row-blocked inputs move with the outputs, block t at point t,
    and every other block index is zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The three whole-array functions the outputs end at. -/
abbrev hiddenRes (c : Dev nD) : FVec Ideal S100000x128 .f32 := hidden (V c main_v40) (V c main_v12) (V c main_v43)
abbrev head1Res (c : Dev nD) : FVec Ideal S100000x128 .f32 := head (V c main_v40) (V c main_v12) (V c main_v43) (V c main_v41)
abbrev head2Res (c : Dev nD) : FVec Ideal S100000x128 .f32 := head (V c main_v40) (V c main_v12) (V c main_v43) (V c main_v42)

/-- A window whose one block is its whole array reads the array. -/
theorem whole2 (c : Dev nD) (t : Fin cfg1.N) : iblk1 V c 2 t = V c main_v43 := by
  obtain ⟨-, -, -, -, e0, e1, -⟩ := index_facts t
  funext y
  show V c main_v43 (((cfg1.win 2).blk t).view.emb y) = V c main_v43 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem whole3 (c : Dev nD) (t : Fin cfg1.N) : iblk1 V c 3 t = V c main_v41 := by
  obtain ⟨-, -, -, -, -, -, e0, e1, -⟩ := index_facts t
  funext y
  show V c main_v41 (((cfg1.win 3).blk t).view.emb y) = V c main_v41 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem whole4 (c : Dev nD) (t : Fin cfg1.N) : iblk1 V c 4 t = V c main_v42 := by
  obtain ⟨-, -, -, -, -, -, -, -, e0, e1, -⟩ := index_facts t
  funext y
  show V c main_v42 (((cfg1.win 4).blk t).view.emb y) = V c main_v42 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-! ## Output window 5: the clamped rows -/

/-- What point `t` writes back in window 5 is block `t` of the whole-array function. -/
theorem flushed5_eq (c : Dev nD) (t : Fin cfg1.N) :
    (dat1 V c).flushed 5 t = ((cfg1.win 5).blk t).view.read (Elt Ideal) (hiddenRes V c) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  obtain ⟨e00, e01, e10, e11, -, -, -, -, -, -, e50, e51, e60, e61, e70, e71⟩ := index_facts t
  funext j
  show k1_pay1 (F := Ideal) (iblk1 V c 0 t) (iblk1 V c 1 t) (iblk1 V c 2 t) j
    = hiddenRes V c (((cfg1.win 5).blk t).view.emb j)
  refine (hidden_payload_at (iblk1 V c 0 t) (iblk1 V c 1 t) (iblk1 V c 2 t) j).trans ?_
  have hj0 : (j 0).val < 2000 := (j 0).isLt
  have hj1 : (j 1).val < 128 := (j 1).isLt
  refine hiddenAt_congr _ _ _ _ _ _ _ _ _ _ (fun d => ?_) ?_ (whole2 V c t) (Fin.ext ?_)
  · show V c main_v40 (((cfg1.win 0).blk t).view.emb (ix2 (j 0) d)) = V c main_v40 (ix2 ((((cfg1.win 5).blk t).view.emb j) 0) d)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * d.val = d.val; omega
  · show V c main_v12 (((cfg1.win 1).blk t).view.emb (ix2 (j 0) (0 : Fin 1))) = V c main_v12 (ix2 ((((cfg1.win 5).blk t).view.emb j) 0) (0 : Fin 1))
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 1 + 1 * 0 = 0; omega
  · show (j 1).val = win1_5.index t (1 : Fin 2) * 128 + 1 * (j 1).val
    omega

theorem mem_blk5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v44_0).slice (win1_5.rect t)).set ↔ _
  rw [View.set_slice_whole, Rect.mem_set_unit]
  exact Iff.rfl

theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 50 := N_1
  have ht : (i 0).val / 2000 < grid1.N := by omega
  obtain ⟨-, -, -, -, -, -, -, -, -, -, e50, e51, e60, e61, e70, e71⟩ := index_facts ⟨(i 0).val / 2000, ht⟩
  refine ⟨⟨(i 0).val / 2000, ht⟩, flush1_5 _, ?_⟩
  rw [mem_blk5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e51]; omega

/-- The array of window 5 after the region. -/
theorem final5 (c : Dev nD) : (dat1 V c).arrAt 5 cfg1.N = hiddenRes V c :=
  (dat1 V c).arrAt_eq_of_cover 5 (hiddenRes V c) (fun t _ => flushed5_eq V c t) cover5

/-! ## Output window 6: the first read-out -/

/-- What point `t` writes back in window 6 is block `t` of the whole-array function. -/
theorem flushed6_eq (c : Dev nD) (t : Fin cfg1.N) :
    (dat1 V c).flushed 6 t = ((cfg1.win 6).blk t).view.read (Elt Ideal) (head1Res V c) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  obtain ⟨e00, e01, e10, e11, -, -, -, -, -, -, e50, e51, e60, e61, e70, e71⟩ := index_facts t
  funext j
  show k1_pay3 (F := Ideal) (iblk1 V c 0 t) (iblk1 V c 1 t) (iblk1 V c 2 t) (iblk1 V c 3 t) j
    = head1Res V c (((cfg1.win 6).blk t).view.emb j)
  refine (head_payload3_at (iblk1 V c 0 t) (iblk1 V c 1 t) (iblk1 V c 2 t) (iblk1 V c 3 t) j).trans ?_
  have hj0 : (j 0).val < 2000 := (j 0).isLt
  have hj1 : (j 1).val < 128 := (j 1).isLt
  refine headAt_congr _ _ _ _ _ _ _ _ _ _ _ _ (fun d => ?_) ?_ (whole2 V c t) (whole3 V c t) (Fin.ext ?_)
  · show V c main_v40 (((cfg1.win 0).blk t).view.emb (ix2 (j 0) d)) = V c main_v40 (ix2 ((((cfg1.win 6).blk t).view.emb j) 0) d)
    refine congrArg _ (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * d.val = d.val; omega
  · show V c main_v12 (((cfg1.win 1).blk t).view.emb (ix2 (j 0) (0 : Fin 1))) = V c main_v12 (ix2 ((((cfg1.win 6).blk t).view.emb j) 0) (0 : Fin 1))
    refine congrArg _ (funext fun a => Fin.ext ?_)
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 1 + 1 * 0 = 0; omega
  · show (j 1).val = win1_6.index t (1 : Fin 2) * 128 + 1 * (j 1).val
    omega

theorem mem_blk6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v44_1).slice (win1_6.rect t)).set ↔ _
  rw [View.set_slice_whole, Rect.mem_set_unit]
  exact Iff.rfl

theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 50 := N_1
  have ht : (i 0).val / 2000 < grid1.N := by omega
  obtain ⟨-, -, -, -, -, -, -, -, -, -, e50, e51, e60, e61, e70, e71⟩ := index_facts ⟨(i 0).val / 2000, ht⟩
  refine ⟨⟨(i 0).val / 2000, ht⟩, flush1_6 _, ?_⟩
  rw [mem_blk6]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e61]; omega

/-- The array of window 6 after the region. -/
theorem final6 (c : Dev nD) : (dat1 V c).arrAt 6 cfg1.N = head1Res V c :=
  (dat1 V c).arrAt_eq_of_cover 6 (head1Res V c) (fun t _ => flushed6_eq V c t) cover6

/-! ## Output window 7: the second read-out -/

/-- What point `t` writes back in window 7 is block `t` of the whole-array function. -/
theorem flushed7_eq (c : Dev nD) (t : Fin cfg1.N) :
    (dat1 V c).flushed 7 t = ((cfg1.win 7).blk t).view.read (Elt Ideal) (head2Res V c) := by
  show (cfg1.win 7).cut (grid1.coords t) ((dat1 V c).after 7 t) = _
  rw [after1_7]
  unfold out1_7
  rw [View.canon_unit_zero zero_offsets]
  simp only [View.ld_unit_zero (S := S2000x128) zero_offsets, View.ld_unit_zero (S := S2000x1) zero_offsets,
    View.ld_unit_zero (S := S1x128) zero_offsets, View.ld_unit_zero (S := S128x128) zero_offsets]
  obtain ⟨e00, e01, e10, e11, -, -, -, -, -, -, e50, e51, e60, e61, e70, e71⟩ := index_facts t
  funext j
  show k1_pay4 (F := Ideal) (iblk1 V c 0 t) (iblk1 V c 1 t) (iblk1 V c 2 t) (iblk1 V c 4 t) j
    = head2Res V c (((cfg1.win 7).blk t).view.emb j)
  refine (head_payload4_at (iblk1 V c 0 t) (iblk1 V c 1 t) (iblk1 V c 2 t) (iblk1 V c 4 t) j).trans ?_
  have hj0 : (j 0).val < 2000 := (j 0).isLt
  have hj1 : (j 1).val < 128 := (j 1).isLt
  refine headAt_congr _ _ _ _ _ _ _ _ _ _ _ _ (fun d => ?_) ?_ (whole2 V c t) (whole4 V c t) (Fin.ext ?_)
  · show V c main_v40 (((cfg1.win 0).blk t).view.emb (ix2 (j 0) d)) = V c main_v40 (ix2 ((((cfg1.win 7).blk t).view.emb j) 0) d)
    refine congrArg _ (funext fun a => Fin.ext ?_)
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * d.val = d.val; omega
  · show V c main_v12 (((cfg1.win 1).blk t).view.emb (ix2 (j 0) (0 : Fin 1))) = V c main_v12 (ix2 ((((cfg1.win 7).blk t).view.emb j) 0) (0 : Fin 1))
    refine congrArg _ (funext fun a => Fin.ext ?_)
    match a with
    | ⟨0, _⟩ => show win1_1.index t (0 : Fin 2) * 2000 + 1 * (j 0).val = win1_7.index t (0 : Fin 2) * 2000 + 1 * (j 0).val; omega
    | ⟨1, _⟩ => show win1_1.index t (1 : Fin 2) * 1 + 1 * 0 = 0; omega
  · show (j 1).val = win1_7.index t (1 : Fin 2) * 128 + 1 * (j 1).val
    omega

theorem mem_blk7 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v44_2).slice (win1_7.rect t)).set ↔ _
  rw [View.set_slice_whole, Rect.mem_set_unit]
  exact Iff.rfl

theorem cover7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : grid1.N = 50 := N_1
  have ht : (i 0).val / 2000 < grid1.N := by omega
  obtain ⟨-, -, -, -, -, -, -, -, -, -, e50, e51, e60, e61, e70, e71⟩ := index_facts ⟨(i 0).val / 2000, ht⟩
  refine ⟨⟨(i 0).val / 2000, ht⟩, flush1_7 _, ?_⟩
  rw [mem_blk7]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [e71]; omega

/-- The array of window 7 after the region. -/
theorem final7 (c : Dev nD) : (dat1 V c).arrAt 7 cfg1.N = head2Res V c :=
  (dat1 V c).arrAt_eq_of_cover 7 (head2Res V c) (fun t _ => flushed7_eq V c t) cover7

end Cert.KernelIdeal.HeadRegion

end
-- ==== Proof.HostSide.lean ====
/-
  What the host stretches of the kernel's program leave in the arrays its two regions read.

  Before the fused region the program computes, from the edge lists alone, the two degree factors
  (the reciprocal square root of the edge count of each node, the count clamped below at one), casts each to a column,
  scales the features by the out-degree column, and aggregates: every edge gathers the scaled row of its source node
  (the node index wrapped when negative) and the gathered rows are summed into the row of the edge's destination.
  It also casts the first bias to a row.  Between the two regions it aggregates the fused region's output the same
  way, transposes the two read-out matrices and casts the second bias to a row.  The changes of float format around
  the gathers are kept as printed (they are the identity on the extended reals, which is used only later).

  Each statement is the fold of the printed operations over the launch memory, read at one buffer.
-/
import proofs.«121842_j23605140259107_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

-- Every statement here holds whatever the float values are.
variable {F : FTy → Type} [FloatOps F]

/-- A node's degree factor from one end of the edge list: count the edges at each node (a scatter-add of ones into
    zeros), clamp the count below at one, take the reciprocal square root. -/
def degFactor (x : IVec S1600000 32) : FVec F S100000 .f32 :=
  Host.rsqrt (maximumf (broadcastInDim S100000 ![] bcast_S_S100000 (constant (F := F) S_ .f32 0x3F800000#32))
    (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 x)
      (broadcastInDim S1600000 ![] bcast_S_S1600000 (constant (F := F) S_ .f32 0x3F800000#32))))

/-- The same as a column [100000, 1], the layout the regions read it in. -/
def degColumn (x : IVec S1600000 32) : FVec F S100000x1 .f32 :=
  shapeCast S100000x1 (degFactor (F := F) x) shapeCasts_S100000_S100000x1

/-- The source node of each edge as a gather index: a negative index wrapped by the node count. -/
def sourceIndex (x1 : IVec S1600000 32) : IVec S1600000x1 32 :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- One aggregation: gather the row of each edge's source, sum the gathered rows into each edge's destination. -/
def aggregate (x1 x2 : IVec S1600000 32) (X : FVec F S100000x128 .f32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 x2)
    (extf .f32 (Host.gather gather_S100000x128_S1600000x1_S1600000x128_1_0_n_n_0_1_1128
      (truncf .bf16 X bitsLt_bf16_f32) (sourceIndex x1)) bitsLt_bf16_f32)

/-- No operation of the stretch writes the buffer: each operation's one result is another buffer. -/
local macro "unwritten" : tactic => `(tactic| (
  refine StableHlo.after_of_forall_not_mem _ _ (List.forall_iff_forall_mem.mp ?_)
  simp only [hostOps0, hostOps0_1, hostOps0_2, hostOps0_3, hostOps0_4, hostOps1, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt F) ℓ) (ρ : Dev nD → PrngReg)

/-! ## At the fused region's entry -/

theorem entry_outColumn (c : Dev nD) :
    V5 m ρ c main_v10 = degColumn (F := F) (m ((c : Thread nD τ).loc main_arg1)) := by
  show StableHlo.after hostOps0_4 (W4 m ρ c) (Proc.devRef .tc main_v10) = _
  after_results
  rfl

theorem entry_inColumn (c : Dev nD) :
    V5 m ρ c main_v12 = degColumn (F := F) (m ((c : Thread nD τ).loc main_arg2)) := by
  show StableHlo.after hostOps0_4 (W4 m ρ c) (Proc.devRef .tc main_v12) = _
  after_results
  rfl

set_option maxHeartbeats 4000000 in
theorem entry_aggregated (c : Dev nD) :
    V5 m ρ c main_v26 = aggregate (m ((c : Thread nD τ).loc main_arg1)) (m ((c : Thread nD τ).loc main_arg2))
      (mulf (m ((c : Thread nD τ).loc main_arg0))
        (broadcastInDim S100000x128 ![0, 1] bcast_S100000x1_S100000x128_0_1 (degColumn (F := F) (m ((c : Thread nD τ).loc main_arg1))))) := by
  show StableHlo.after hostOps0_4 (W4 m ρ c) (Proc.devRef .tc main_v26) = _
  after_results_simp
  rfl

theorem entry_biasRow (c : Dev nD) :
    V5 m ρ c main_v27 = shapeCast S1x256 (m ((c : Thread nD τ).loc main_arg4)) shapeCasts_S256_S1x256 := by
  show StableHlo.after hostOps0_4 (W4 m ρ c) (Proc.devRef .tc main_v27) = _
  after_results
  rfl

/-- An argument array is written by no host operation: at the fused region's entry it holds its launch contents. -/
theorem entry_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by unwritten
    _ = W3 m ρ c (Proc.devRef .tc main_arg1) := by unwritten
    _ = W2 m ρ c (Proc.devRef .tc main_arg1) := by unwritten
    _ = W1 m ρ c (Proc.devRef .tc main_arg1) := by unwritten
    _ = W0 m ρ c (Proc.devRef .tc main_arg1) := by unwritten
    _ = m ((c : Thread nD τ).loc main_arg1) := rfl

theorem entry_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by unwritten
    _ = W3 m ρ c (Proc.devRef .tc main_arg2) := by unwritten
    _ = W2 m ρ c (Proc.devRef .tc main_arg2) := by unwritten
    _ = W1 m ρ c (Proc.devRef .tc main_arg2) := by unwritten
    _ = W0 m ρ c (Proc.devRef .tc main_arg2) := by unwritten
    _ = m ((c : Thread nD τ).loc main_arg2) := rfl

theorem entry_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by unwritten
    _ = W3 m ρ c (Proc.devRef .tc main_arg3) := by unwritten
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl

theorem entry_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by unwritten
    _ = W3 m ρ c (Proc.devRef .tc main_arg5) := by unwritten
    _ = W2 m ρ c (Proc.devRef .tc main_arg5) := by unwritten
    _ = W1 m ρ c (Proc.devRef .tc main_arg5) := by unwritten
    _ = W0 m ρ c (Proc.devRef .tc main_arg5) := by unwritten
    _ = m ((c : Thread nD τ).loc main_arg5) := rfl

theorem entry_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by unwritten
    _ = W3 m ρ c (Proc.devRef .tc main_arg6) := by unwritten
    _ = W2 m ρ c (Proc.devRef .tc main_arg6) := by unwritten
    _ = W1 m ρ c (Proc.devRef .tc main_arg6) := by unwritten
    _ = W0 m ρ c (Proc.devRef .tc main_arg6) := by unwritten
    _ = m ((c : Thread nD τ).loc main_arg6) := rfl

theorem entry_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by unwritten
    _ = W3 m ρ c (Proc.devRef .tc main_arg7) := by unwritten
    _ = W2 m ρ c (Proc.devRef .tc main_arg7) := by unwritten
    _ = W1 m ρ c (Proc.devRef .tc main_arg7) := by unwritten
    _ = W0 m ρ c (Proc.devRef .tc main_arg7) := by unwritten
    _ = m ((c : Thread nD τ).loc main_arg7) := rfl

theorem entry_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by unwritten
    _ = W3 m ρ c (Proc.devRef .tc main_arg8) := by unwritten
    _ = W2 m ρ c (Proc.devRef .tc main_arg8) := by unwritten
    _ = W1 m ρ c (Proc.devRef .tc main_arg8) := by unwritten
    _ = W0 m ρ c (Proc.devRef .tc main_arg8) := by unwritten
    _ = m ((c : Thread nD τ).loc main_arg8) := rfl

/-- The same for one not among the fused region's own arrays, at that region's exit. -/
theorem exit_arg1 (c : Dev nD) : W6 m ρ c (Proc.devRef .tc main_arg1) = m ((c : Thread nD τ).loc main_arg1) :=
  (W6_of_ne m ρ c main_arg1 (by decide)).trans (entry_arg1 m ρ c)
theorem exit_arg2 (c : Dev nD) : W6 m ρ c (Proc.devRef .tc main_arg2) = m ((c : Thread nD τ).loc main_arg2) :=
  (W6_of_ne m ρ c main_arg2 (by decide)).trans (entry_arg2 m ρ c)
theorem exit_arg6 (c : Dev nD) : W6 m ρ c (Proc.devRef .tc main_arg6) = m ((c : Thread nD τ).loc main_arg6) :=
  (W6_of_ne m ρ c main_arg6 (by decide)).trans (entry_arg6 m ρ c)
theorem exit_arg7 (c : Dev nD) : W6 m ρ c (Proc.devRef .tc main_arg7) = m ((c : Thread nD τ).loc main_arg7) :=
  (W6_of_ne m ρ c main_arg7 (by decide)).trans (entry_arg7 m ρ c)
theorem exit_arg8 (c : Dev nD) : W6 m ρ c (Proc.devRef .tc main_arg8) = m ((c : Thread nD τ).loc main_arg8) :=
  (W6_of_ne m ρ c main_arg8 (by decide)).trans (entry_arg8 m ρ c)

/-! ## At the head region's entry -/

set_option maxHeartbeats 4000000 in
theorem head_aggregated (c : Dev nD) :
    V7 m ρ c main_v40 = aggregate (m ((c : Thread nD τ).loc main_arg1)) (m ((c : Thread nD τ).loc main_arg2))
      (W6 m ρ c (Proc.devRef .tc main_v28)) := by
  show StableHlo.after hostOps1 (W6 m ρ c) (Proc.devRef .tc main_v40) = _
  after_results_simp
  rw [exit_arg1 m ρ c, exit_arg2 m ρ c]
  rfl

/-- The in-degree column is an input of the fused region, which never writes it. -/
theorem head_inColumn (c : Dev nD) :
    V7 m ρ c main_v12 = degColumn (F := F) (m ((c : Thread nD τ).loc main_arg2)) := by
  show StableHlo.after hostOps1 (W6 m ρ c) (Proc.devRef .tc main_v12) = _
  have hw : StableHlo.after hostOps1 (W6 m ρ c) (Proc.devRef .tc main_v12) = W6 m ρ c (Proc.devRef .tc main_v12) := by unwritten
  rw [hw]
  exact ((W6_arr m ρ c 1).trans (((dat0 (V5 m ρ) c).arrAt_in 1 rfl _).trans (A_eq0 (V5 m ρ) c 1))).trans (entry_inColumn m ρ c)

theorem head_biasRow (c : Dev nD) :
    V7 m ρ c main_v43 = shapeCast S1x128 (m ((c : Thread nD τ).loc main_arg6)) shapeCasts_S128_S1x128 := by
  show StableHlo.after hostOps1 (W6 m ρ c) (Proc.devRef .tc main_v43) = _
  after_results
  rw [exit_arg6 m ρ c]
  rfl

theorem head_weights1 (c : Dev nD) :
    V7 m ρ c main_v41 = transpose S128x128 [1, 0] (m ((c : Thread nD τ).loc main_arg7)) transposes_S128x128_S128x128_1_0 := by
  show StableHlo.after hostOps1 (W6 m ρ c) (Proc.devRef .tc main_v41) = _
  after_results
  rw [exit_arg7 m ρ c]

theorem head_weights2 (c : Dev nD) :
    V7 m ρ c main_v42 = transpose S128x128 [1, 0] (m ((c : Thread nD τ).loc main_arg8)) transposes_S128x128_S128x128_1_0 := by
  show StableHlo.after hostOps1 (W6 m ρ c) (Proc.devRef .tc main_v42) = _
  after_results
  rw [exit_arg8 m ρ c]

end Cert.KernelIdeal.HostSide

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibCastInDim.lean ====
/-
  Giving a vector a unit axis by a cast or by a broadcast is the same array.

  A vector [a] recast as a column [a, 1] and the host's broadcast_in_dim placing it on axis 0 of [a, 1] both read, at
  (i, 0), the vector's entry i; a vector [b] recast as a row [1, b] and the broadcast placing it on axis 1 of [1, b] both
  read, at (0, j), entry j.  So the two spellings of "add a unit axis" are one function, for any element type.
-/
import Idealize.ShloMosaic.Lib.Pipeline.Value
import Idealize.ShloMosaic.Lib.ValueIdx
import Idealize.ShloMosaic.Lib.ValueLayout
import proofs.«121842_j23605140259107_2_alg».proof.Proof.LibKeepdims
import proofs.«121842_j23605140259107_2_alg».proof.Proof.LibInDimLayout
import proofs.«121842_j23605140259107_2_alg».proof.Proof.LibInDimRow

namespace Cert.LibCastInDim

open Idealize.ShloMosaic Idealize.ShloMosaic.ValueIdx

variable {α : Type}

/-- [a] as a column [a, 1]: the cast is the broadcast along axis 0. -/
theorem column_cast_eq_inDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext i
  obtain ⟨p, u, rfl⟩ : ∃ (p : Fin a) (u : Fin 1), i = ix2 p u := ⟨i 0, i 1, eq_ix2 i⟩
  rw [Cert.LibKeepdims.shapeCast_a_a1_apply, Cert.LibInDimLayout.inDim_a_a1_apply]

/-- [b] as a row [1, b]: the cast is the broadcast along axis 1. -/
theorem row_cast_eq_inDim {b : ℕ} (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, j, rfl⟩ : ∃ (u : Fin 1) (j : Fin b), i = ix2 u j := ⟨i 0, i 1, eq_ix2 i⟩
  rw [shapeCast_a_1a_apply, Cert.LibInDimRow.inDim_b_1b_apply]

end Cert.LibCastInDim
-- ==== Proof.Bridge.lean ====
/-
  The kernel's host side and the reference's stages are the same arrays.

  Both programs compute the degree factors, the source indices and the two aggregations with the same host
  operations on the same edge lists; they differ in spelling only: the kernel's program recasts a degree factor to a
  column and a bias to a row where the reference broadcasts it along a new unit axis (one function:
  `LibCastInDim`), and it passes the rows through a narrower float format around each gather (the identity on the
  extended reals).  Each equation below is between two spellings of one composition; those that involve no format
  change hold at any float instance.
-/
import proofs.«121842_j23605140259107_2_alg».proof.Proof.HostSide
import proofs.«121842_j23605140259107_2_alg».proof.Proof.Gen.ReferenceIdeal.Read
import proofs.«121842_j23605140259107_2_alg».proof.Proof.LibCastInDim
import Idealize.ShloMosaic.PureOps.Ideal

noncomputable section

namespace Cert.Bridge

open Cert.KernelIdeal Cert.KernelIdeal.Gen Cert.KernelIdeal.HostSide Cert.ReferenceIdeal.Read
open Idealize.ShloMosaic Idealize.ShloMosaic.ValueIdx

/-! ## At any float instance -/

section AnyF
variable {F : FTy → Type} [FloatOps F]

/-- The degree factor of the source ends is the reference's out-degree factor, of the destination ends its
    in-degree factor: the same count, clamp and reciprocal square root. -/
theorem degFactor_out (x1 : IVec S1600000 32) : degFactor (F := F) x1 = val_main_v9 (F := F) x1 := rfl
theorem degFactor_in (x2 : IVec S1600000 32) : degFactor (F := F) x2 = val_main_v10 (F := F) x2 := rfl

/-- An aggregation without the format changes: the reference's. -/
def aggPlain (x1 x2 : IVec S1600000 32) (X : FVec F S100000x128 .f32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 x2)
    (Host.gather gather_S100000x128_S1600000x1_S1600000x128_1_0_n_n_0_1_1128 X (sourceIndex x1))

/-- The reference's first aggregated array. -/
theorem agg_first (x0 : FVec F S100000x128 .f32) (x1 x2 : IVec S1600000 32) :
    aggPlain (F := F) x1 x2 (val_main_v13 (F := F) x0 x1) = val_main_v23 (F := F) x0 x1 x2 := rfl

/-- The reference's second aggregated array. -/
theorem agg_second (x0 : FVec F S100000x128 .f32) (x1 x2 : IVec S1600000 32) (x3 : FVec F S128x256 .f32) (x4 : FVec F S256 .f32)
    (x5 : FVec F S256x128 .f32) :
    aggPlain (F := F) x1 x2 (val_main_v35 (F := F) x0 x1 x2 x3 x4 x5) = val_main_v45 (F := F) x0 x1 x2 x3 x4 x5 := rfl

/-- The out-degree column, in the kernel's spelling (a cast) and the reference's (a broadcast). -/
theorem outColumn (x1 : IVec S1600000 32) : degColumn (F := F) x1 = val_main_v33 (F := F) x1 := by
  unfold degColumn
  rw [Cert.LibCastInDim.column_cast_eq_inDim (degFactor (F := F) x1) shapeCasts_S100000_S100000x1
    Cert.ReferenceIdeal.Gen.bcast_S100000_S100000x1_0, degFactor_out]
  rfl

/-- The in-degree column, as the reference's fused layer and its head read it. -/
theorem inColumn (x2 : IVec S1600000 32) : degColumn (F := F) x2 = val_main_v24 (F := F) x2 := by
  unfold degColumn
  rw [Cert.LibCastInDim.column_cast_eq_inDim (degFactor (F := F) x2) shapeCasts_S100000_S100000x1
    Cert.ReferenceIdeal.Gen.bcast_S100000_S100000x1_0, degFactor_in]
  rfl

theorem inColumn' (x2 : IVec S1600000 32) : degColumn (F := F) x2 = val_main_v46 (F := F) x2 := by
  unfold degColumn
  rw [Cert.LibCastInDim.column_cast_eq_inDim (degFactor (F := F) x2) shapeCasts_S100000_S100000x1
    Cert.ReferenceIdeal.Gen.bcast_S100000_S100000x1_0, degFactor_in]
  rfl

/-- The features scaled by the out-degree column. -/
theorem scaledFeatures (x0 : FVec F S100000x128 .f32) (x1 : IVec S1600000 32) :
    mulf x0 (broadcastInDim S100000x128 ![0, 1] bcast_S100000x1_S100000x128_0_1 (degColumn (F := F) x1))
      = val_main_v13 (F := F) x0 x1 := by
  rw [outColumn]
  rfl

/-- The two bias rows. -/
theorem biasRow1 (x4 : FVec F S256 .f32) : shapeCast S1x256 x4 shapeCasts_S256_S1x256 = val_main_v28 (F := F) x4 := by
  rw [Cert.LibCastInDim.row_cast_eq_inDim x4 shapeCasts_S256_S1x256 Cert.ReferenceIdeal.Gen.bcast_S256_S1x256_1]
  rfl

theorem biasRow2 (x6 : FVec F S128 .f32) : shapeCast S1x128 x6 shapeCasts_S128_S1x128 = val_main_v49 (F := F) x6 := by
  rw [Cert.LibCastInDim.row_cast_eq_inDim x6 shapeCasts_S128_S1x128 Cert.ReferenceIdeal.Gen.bcast_S128_S1x128_1]
  rfl

/-- The two transposed read-out matrices. -/
theorem weights1 (x7 : FVec F S128x128 .f32) :
    transpose S128x128 [1, 0] x7 transposes_S128x128_S128x128_1_0 = val_main_v53 (F := F) x7 := rfl
theorem weights2 (x8 : FVec F S128x128 .f32) :
    transpose S128x128 [1, 0] x8 transposes_S128x128_S128x128_1_0 = val_main_v55 (F := F) x8 := rfl

end AnyF

/-! ## On the extended reals -/

/-- A change of float format before a gather and back after it does nothing. -/
theorem gather_formats (X : FVec Ideal S100000x128 .f32) (idx : IVec S1600000x1 32) :
    extf .f32 (Host.gather gather_S100000x128_S1600000x1_S1600000x128_1_0_n_n_0_1_1128
        (truncf .bf16 X bitsLt_bf16_f32) idx) bitsLt_bf16_f32
      = Host.gather gather_S100000x128_S1600000x1_S1600000x128_1_0_n_n_0_1_1128 X idx := rfl

/-- So the kernel's aggregation is the plain one. -/
theorem aggregate_plain (x1 x2 : IVec S1600000 32) (X : FVec Ideal S100000x128 .f32) :
    aggregate (F := Ideal) x1 x2 X = aggPlain (F := Ideal) x1 x2 X := by
  unfold aggregate aggPlain
  rw [gather_formats]

end Cert.Bridge

end
-- ==== Proof.RefLayers.lean ====
/-
  The reference's dense layers are the same two formulas, over the whole arrays.

  The reference computes, on all 100000 rows at once, the in-degree scaling, the product with the first weight matrix
  (a host dot_general: an inner product per entry), the bias, the clamp at zero, the product with the second weight
  matrix and the out-degree scaling; then, after the second aggregation, the scaling, the second bias, the clamp and
  the two read-outs.  Read at an index each is the layer formula of `Layers` at that row and column, with the degree
  factors in the column layout [100000, 1] and the biases in the row layout [1, n] that the reference's own broadcasts
  pass through.  The aggregated arrays, the columns, the bias rows and the transposed weights enter only as arrays: the
  statements hold for any arrays in their place.
-/
import proofs.«121842_j23605140259107_2_alg».proof.Proof.Gen.ReferenceIdeal.Read
import proofs.«121842_j23605140259107_2_alg».proof.Proof.Layers
import proofs.«121842_j23605140259107_2_alg».proof.Proof.LibInnerProducts
import proofs.«121842_j23605140259107_2_alg».proof.Proof.LibInDimLayout
import proofs.«121842_j23605140259107_2_alg».proof.Proof.LibInDimRow

noncomputable section

namespace Cert.ReferenceIdeal.RefLayers

open Cert.ReferenceIdeal Cert.ReferenceIdeal.Gen Cert.ReferenceIdeal.Read Cert.GraphConv
open Idealize.ShloMosaic Idealize.ShloMosaic.ValueIdx
open scoped BigOperators

abbrev ArgF (s : Shape) : Type := (⟨s, .f32⟩ : BufTy).Contents (Elt Ideal)
abbrev ArgI (s : Shape) : Type := (⟨s, .i32⟩ : BufTy).Contents (Elt Ideal)

/-! ## The three host products are plain ones -/

theorem dot1_plain : dot_S100000x128_S128x256_S100000x256_1_0_0_1_n_n = DotDims.plain 100000 128 256 := rfl
theorem dot2_plain : dot_S100000x256_S256x128_S100000x128_1_0_0_1_n_n = DotDims.plain 100000 256 128 := rfl
theorem dot3_plain : dot_S100000x128_S128x128_S100000x128_1_0_0_1_n_n = DotDims.plain 100000 128 128 := rfl

theorem dot1_apply (a : FVec Ideal S100000x128 .f32) (w : FVec Ideal S128x256 .f32) (p : Fin 100000) (k : Fin 256) :
    Host.dotGeneral dot_S100000x128_S128x256_S100000x256_1_0_0_1_n_n none a w (ix2 p k) = ∑ d : Fin 128, a (ix2 p d) * w (ix2 d k) :=
  InnerProducts.dotGeneral_apply _ dot1_plain none a w p k

theorem dot2_apply (a : FVec Ideal S100000x256 .f32) (w : FVec Ideal S256x128 .f32) (p : Fin 100000) (f : Fin 128) :
    Host.dotGeneral dot_S100000x256_S256x128_S100000x128_1_0_0_1_n_n none a w (ix2 p f) = ∑ k : Fin 256, a (ix2 p k) * w (ix2 k f) :=
  InnerProducts.dotGeneral_apply _ dot2_plain none a w p f

theorem dot3_apply (a : FVec Ideal S100000x128 .f32) (w : FVec Ideal S128x128 .f32) (p : Fin 100000) (j : Fin 128) :
    Host.dotGeneral dot_S100000x128_S128x128_S100000x128_1_0_0_1_n_n none a w (ix2 p j) = ∑ f : Fin 128, a (ix2 p f) * w (ix2 f j) :=
  InnerProducts.dotGeneral_apply _ dot3_plain none a w p j

/-! ## The reference's operations on arbitrary arrays are the layer formulas

  Stated for arbitrary arrays in place of the aggregated array, the two columns and the bias row. -/

/-- A column spread over the 128 feature columns reads its row's one entry. -/
theorem col_apply (v : FVec Ideal S100000x1 .f32) (p : Fin 100000) (d : Fin 128) :
    broadcastInDim S100000x128 ![0, 1] bcast_S100000x1_S100000x128_0_1 v (ix2 p d) = v (ix2 p (0 : Fin 1)) :=
  LibInDimLayout.inDim_a1_ab_apply v bcast_S100000x1_S100000x128_0_1 p d

/-- A bias row spread over the rows reads its column's one entry. -/
theorem row256_apply (v : FVec Ideal S1x256 .f32) (p : Fin 100000) (k : Fin 256) :
    broadcastInDim S100000x256 ![0, 1] bcast_S1x256_S100000x256_0_1 v (ix2 p k) = v (ix2 (0 : Fin 1) k) :=
  LibInDimRow.inDim_1b_ab_apply v bcast_S1x256_S100000x256_0_1 p k

theorem row128_apply (v : FVec Ideal S1x128 .f32) (p : Fin 100000) (f : Fin 128) :
    broadcastInDim S100000x128 ![0, 1] bcast_S1x128_S100000x128_0_1 v (ix2 p f) = v (ix2 (0 : Fin 1) f) :=
  LibInDimRow.inDim_1b_ab_apply v bcast_S1x128_S100000x128_0_1 p f

/-- The clamp's floor, spread over an array, reads the zero word's value everywhere. -/
theorem floor256_apply (i : S100000x256.Idx) :
    broadcastInDim S100000x256 ![] bcast_S_S100000x256 (constant (F := Ideal) S_ .f32 0x00000000#32) i = floor32 := rfl

theorem floor128_apply (i : S100000x128.Idx) :
    broadcastInDim S100000x128 ![] bcast_S_S100000x128 (constant (F := Ideal) S_ .f32 0x00000000#32) i = floor32 := rfl

/-- The scaled row times the first weight matrix, plus the bias row, at row `p`, column `k`. -/
theorem preact_ops (A : FVec Ideal S100000x128 .f32) (cI : FVec Ideal S100000x1 .f32) (W1 : FVec Ideal S128x256 .f32)
    (brow : FVec Ideal S1x256 .f32) (p : Fin 100000) (k : Fin 256) :
    addf (Host.dotGeneral dot_S100000x128_S128x256_S100000x256_1_0_0_1_n_n none
        (mulf A (broadcastInDim S100000x128 ![0, 1] bcast_S100000x1_S100000x128_0_1 cI)) W1)
      (broadcastInDim S100000x256 ![0, 1] bcast_S1x256_S100000x256_0_1 brow) (ix2 p k)
    = (∑ d : Fin 128, (A (ix2 p d) * cI (ix2 p (0 : Fin 1))) * W1 (ix2 d k)) + brow (ix2 (0 : Fin 1) k) := by
  rw [addf_apply, dot1_apply, row256_apply brow p k]
  refine congrArg (fun s => s + brow (ix2 (0 : Fin 1) k)) (Finset.sum_congr rfl fun d _ => ?_)
  rw [mulf_apply, col_apply cI p d]

/-- The same clamped at zero. -/
theorem act_ops (A : FVec Ideal S100000x128 .f32) (cI : FVec Ideal S100000x1 .f32) (W1 : FVec Ideal S128x256 .f32)
    (brow : FVec Ideal S1x256 .f32) (p : Fin 100000) (k : Fin 256) :
    maximumf (addf (Host.dotGeneral dot_S100000x128_S128x256_S100000x256_1_0_0_1_n_n none
          (mulf A (broadcastInDim S100000x128 ![0, 1] bcast_S100000x1_S100000x128_0_1 cI)) W1)
        (broadcastInDim S100000x256 ![0, 1] bcast_S1x256_S100000x256_0_1 brow))
      (broadcastInDim S100000x256 ![] bcast_S_S100000x256 (constant (F := Ideal) S_ .f32 0x00000000#32)) (ix2 p k)
    = max ((∑ d : Fin 128, (A (ix2 p d) * cI (ix2 p (0 : Fin 1))) * W1 (ix2 d k)) + brow (ix2 (0 : Fin 1) k)) floor32 := by
  rw [maximumf_apply, preact_ops, floor256_apply]

/-- Scale by the in-degree column, first product, bias row, clamp, second product, scale by the out-degree column. -/
theorem fused_ops (A : FVec Ideal S100000x128 .f32) (cI cO : FVec Ideal S100000x1 .f32) (W1 : FVec Ideal S128x256 .f32)
    (brow : FVec Ideal S1x256 .f32) (W2 : FVec Ideal S256x128 .f32) :
    mulf (Host.dotGeneral dot_S100000x256_S256x128_S100000x128_1_0_0_1_n_n none
        (maximumf (addf (Host.dotGeneral dot_S100000x128_S128x256_S100000x256_1_0_0_1_n_n none
            (mulf A (broadcastInDim S100000x128 ![0, 1] bcast_S100000x1_S100000x128_0_1 cI)) W1)
          (broadcastInDim S100000x256 ![0, 1] bcast_S1x256_S100000x256_0_1 brow))
          (broadcastInDim S100000x256 ![] bcast_S_S100000x256 (constant (F := Ideal) S_ .f32 0x00000000#32))) W2)
      (broadcastInDim S100000x128 ![0, 1] bcast_S100000x1_S100000x128_0_1 cO)
    = fused A cI cO W1 brow W2 := by
  funext i
  obtain ⟨p, f, rfl⟩ : ∃ (p : Fin 100000) (f : Fin 128), i = ix2 p f := ⟨i 0, i 1, eq_ix2 i⟩
  rw [fused_ix2]
  unfold fusedAt
  rw [mulf_apply, dot2_apply, col_apply cO p f]
  refine congrArg (fun s => s * cO (ix2 p (0 : Fin 1))) (Finset.sum_congr rfl fun k _ => ?_)
  rw [act_ops]

/-- Scale by the in-degree column, bias row, clamp. -/
theorem hidden_ops (A : FVec Ideal S100000x128 .f32) (cI : FVec Ideal S100000x1 .f32) (brow : FVec Ideal S1x128 .f32) :
    maximumf (addf (mulf A (broadcastInDim S100000x128 ![0, 1] bcast_S100000x1_S100000x128_0_1 cI))
        (broadcastInDim S100000x128 ![0, 1] bcast_S1x128_S100000x128_0_1 brow))
      (broadcastInDim S100000x128 ![] bcast_S_S100000x128 (constant (F := Ideal) S_ .f32 0x00000000#32))
    = hidden A cI brow := by
  funext i
  obtain ⟨p, f, rfl⟩ : ∃ (p : Fin 100000) (f : Fin 128), i = ix2 p f := ⟨i 0, i 1, eq_ix2 i⟩
  rw [hidden_ix2]
  unfold hiddenAt
  rw [maximumf_apply, addf_apply, mulf_apply, col_apply cI p f, row128_apply brow p f, floor128_apply]

/-- A read-out: the product of the clamped rows with a weight matrix. -/
theorem head_ops (A : FVec Ideal S100000x128 .f32) (cI : FVec Ideal S100000x1 .f32) (brow : FVec Ideal S1x128 .f32)
    (Wt : FVec Ideal S128x128 .f32) :
    Host.dotGeneral dot_S100000x128_S128x128_S100000x128_1_0_0_1_n_n none (hidden A cI brow) Wt = head A cI brow Wt := by
  funext i
  obtain ⟨p, j, rfl⟩ : ∃ (p : Fin 100000) (j : Fin 128), i = ix2 p j := ⟨i 0, i 1, eq_ix2 i⟩
  rw [head_ix2, dot3_apply]
  unfold headAt
  simp only [hidden_ix2]

/-! ## The reference's stages

  Each stage is, by its definition, the operations above applied to the earlier stages. -/

section Stages
variable (x0 : ArgF S100000x128) (x1 x2 : ArgI S1600000) (x3 : ArgF S128x256) (x4 : ArgF S256) (x5 : ArgF S256x128)
  (x6 : ArgF S128)

/-- The reference's array before its second aggregation is the fused layer of its first aggregated array. -/
theorem fused_stage :
    val_main_v35 (F := Ideal) x0 x1 x2 x3 x4 x5
      = fused (val_main_v23 (F := Ideal) x0 x1 x2) (val_main_v24 (F := Ideal) x2) (val_main_v33 (F := Ideal) x1) x3
          (val_main_v28 (F := Ideal) x4) x5 := by
  rw [← fused_ops (val_main_v23 (F := Ideal) x0 x1 x2) (val_main_v24 (F := Ideal) x2) (val_main_v33 (F := Ideal) x1) x3
    (val_main_v28 (F := Ideal) x4) x5]
  unfold val_main_v35 val_main_v34 val_main_v32 val_main_v31 val_main_call2_v0 val_main_call2_cst val_main_v30
    val_main_v29 val_main_v27 val_main_v26 val_main_v25
  rfl

/-- The reference's first result is the clamped layer of its second aggregated array. -/
theorem hidden_stage :
    val_main_v52 (F := Ideal) x0 x1 x2 x3 x4 x5 x6
      = hidden (val_main_v45 (F := Ideal) x0 x1 x2 x3 x4 x5) (val_main_v46 (F := Ideal) x2) (val_main_v49 (F := Ideal) x6) := by
  rw [← hidden_ops (val_main_v45 (F := Ideal) x0 x1 x2 x3 x4 x5) (val_main_v46 (F := Ideal) x2) (val_main_v49 (F := Ideal) x6)]
  unfold val_main_v52 val_main_v51 val_main_v48 val_main_v47 val_main_v50 val_main_call3_v0 val_main_call3_cst
  rfl

/-- The reference's second result is the first read-out of that layer. -/
theorem head1_stage (x7 : ArgF S128x128) :
    val_main_v54 (F := Ideal) x0 x1 x2 x3 x4 x5 x6 x7
      = head (val_main_v45 (F := Ideal) x0 x1 x2 x3 x4 x5) (val_main_v46 (F := Ideal) x2) (val_main_v49 (F := Ideal) x6)
          (val_main_v53 (F := Ideal) x7) := by
  rw [← head_ops, ← hidden_stage]
  unfold val_main_v54
  rfl

/-- The reference's third result is the second read-out. -/
theorem head2_stage (x8 : ArgF S128x128) :
    val_main_v56 (F := Ideal) x0 x1 x2 x3 x4 x5 x6 x8
      = head (val_main_v45 (F := Ideal) x0 x1 x2 x3 x4 x5) (val_main_v46 (F := Ideal) x2) (val_main_v49 (F := Ideal) x6)
          (val_main_v55 (F := Ideal) x8) := by
  rw [← head_ops, ← hidden_stage]
  unfold val_main_v56
  rfl

end Stages

end Cert.ReferenceIdeal.RefLayers

end
-- ==== Proof.Outputs.lean ====
/-
  The kernel's three result arrays are the reference's three result stages, computed from the kernel's own arguments.

  The fused region finds the first aggregated array, the two degree columns, the first bias row and the two weight
  matrices, and leaves the fused layer of them; the host aggregates that; the head region finds the second aggregated
  array, the in-degree column, the second bias row and the two transposed read-out matrices, and leaves the clamped
  layer and its two read-outs.  Each array found is, spelling apart, the reference's stage of the same name
  (`Bridge`), and the reference's later stages are the same layer formulas of them (`RefLayers`).
-/
import proofs.«121842_j23605140259107_2_alg».proof.Proof.KernelRun
import proofs.«121842_j23605140259107_2_alg».proof.Proof.RegionFused
import proofs.«121842_j23605140259107_2_alg».proof.Proof.RegionHead
import proofs.«121842_j23605140259107_2_alg».proof.Proof.Bridge
import proofs.«121842_j23605140259107_2_alg».proof.Proof.RefLayers

set_option maxRecDepth 16384

noncomputable section

namespace Cert.KernelIdeal.Outputs

open Cert.KernelIdeal Cert.KernelIdeal.Gen Cert.GraphConv
open Cert.ReferenceIdeal.Read
open Idealize.ShloMosaic Idealize.ShloMosaic.TcCoe Idealize.SL.Sem

variable (m : (ℓ : Loc nD τ sig) → Buf (Elt Ideal) ℓ) (ρ : Dev nD → PrngReg)

/-- After the fused region its output array holds the reference's array before the second aggregation. -/
theorem fused_output (c : Dev nD) :
    W6 m ρ c (Proc.devRef .tc main_v28) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W6 m ρ c (Proc.devRef .tc main_v28) = (dat0 (V5 m ρ) c).arrAt 6 cfg0.N from W6_arr m ρ c 6,
    FusedRegion.final (V5 m ρ) c]
  show fused (V5 m ρ c main_v26) (V5 m ρ c main_v12) (V5 m ρ c main_v10) (V5 m ρ c main_arg3) (V5 m ρ c main_v27) (V5 m ρ c main_arg5) = _
  rw [HostSide.entry_aggregated m ρ c, HostSide.entry_inColumn m ρ c, HostSide.entry_outColumn m ρ c, HostSide.entry_biasRow m ρ c,
    show V5 m ρ c main_arg3 = (m ((c : Thread nD τ).loc main_arg3)) from HostSide.entry_arg3 m ρ c,
    show V5 m ρ c main_arg5 = (m ((c : Thread nD τ).loc main_arg5)) from HostSide.entry_arg5 m ρ c]
  have hb : shapeCast S1x256 (m ((c : Thread nD τ).loc main_arg4)) shapeCasts_S256_S1x256 = val_main_v28 (F := Ideal) (m ((c : Thread nD τ).loc main_arg4)) :=
    Cert.Bridge.biasRow1 (F := Ideal) _
  rw [Cert.Bridge.aggregate_plain, Cert.Bridge.scaledFeatures, Cert.Bridge.agg_first,
    Cert.Bridge.inColumn (m ((c : Thread nD τ).loc main_arg2)), Cert.Bridge.outColumn (m ((c : Thread nD τ).loc main_arg1)), hb]
  exact (Cert.ReferenceIdeal.RefLayers.fused_stage _ _ _ _ _ _).symm

/-- So the head region finds the reference's second aggregated array. -/
theorem head_input (c : Dev nD) :
    V7 m ρ c main_v40 = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [HostSide.head_aggregated m ρ c, fused_output m ρ c, Cert.Bridge.aggregate_plain, Cert.Bridge.agg_second]

/-- The first result: the clamped layer. -/
theorem result0 (c : Dev nD) :
    (dat1 (V7 m ρ) c).arrAt 5 cfg1.N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [HeadRegion.final5 (V7 m ρ) c]
  show hidden (V7 m ρ c main_v40) (V7 m ρ c main_v12) (V7 m ρ c main_v43) = _
  have hb : shapeCast S1x128 (m ((c : Thread nD τ).loc main_arg6)) shapeCasts_S128_S1x128 = val_main_v49 (F := Ideal) (m ((c : Thread nD τ).loc main_arg6)) :=
    Cert.Bridge.biasRow2 (F := Ideal) _
  rw [head_input m ρ c, HostSide.head_inColumn m ρ c, HostSide.head_biasRow m ρ c, Cert.Bridge.inColumn', hb]
  exact (Cert.ReferenceIdeal.RefLayers.hidden_stage _ _ _ _ _ _ _).symm

/-- The second result: the first read-out. -/
theorem result1 (c : Dev nD) :
    (dat1 (V7 m ρ) c).arrAt 6 cfg1.N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [HeadRegion.final6 (V7 m ρ) c]
  show head (V7 m ρ c main_v40) (V7 m ρ c main_v12) (V7 m ρ c main_v43) (V7 m ρ c main_v41) = _
  have hb : shapeCast S1x128 (m ((c : Thread nD τ).loc main_arg6)) shapeCasts_S128_S1x128 = val_main_v49 (F := Ideal) (m ((c : Thread nD τ).loc main_arg6)) :=
    Cert.Bridge.biasRow2 (F := Ideal) _
  have hw : transpose S128x128 [1, 0] (m ((c : Thread nD τ).loc main_arg7)) transposes_S128x128_S128x128_1_0 = val_main_v53 (F := Ideal) (m ((c : Thread nD τ).loc main_arg7)) :=
    Cert.Bridge.weights1 (F := Ideal) _
  rw [head_input m ρ c, HostSide.head_inColumn m ρ c, HostSide.head_biasRow m ρ c, HostSide.head_weights1 m ρ c,
    Cert.Bridge.inColumn', hb, hw]
  exact (Cert.ReferenceIdeal.RefLayers.head1_stage _ _ _ _ _ _ _ _).symm

/-- The third result: the second read-out. -/
theorem result2 (c : Dev nD) :
    (dat1 (V7 m ρ) c).arrAt 7 cfg1.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  rw [HeadRegion.final7 (V7 m ρ) c]
  show head (V7 m ρ c main_v40) (V7 m ρ c main_v12) (V7 m ρ c main_v43) (V7 m ρ c main_v42) = _
  have hb : shapeCast S1x128 (m ((c : Thread nD τ).loc main_arg6)) shapeCasts_S128_S1x128 = val_main_v49 (F := Ideal) (m ((c : Thread nD τ).loc main_arg6)) :=
    Cert.Bridge.biasRow2 (F := Ideal) _
  have hw : transpose S128x128 [1, 0] (m ((c : Thread nD τ).loc main_arg8)) transposes_S128x128_S128x128_1_0 = val_main_v55 (F := Ideal) (m ((c : Thread nD τ).loc main_arg8)) :=
    Cert.Bridge.weights2 (F := Ideal) _
  rw [head_input m ρ c, HostSide.head_inColumn m ρ c, HostSide.head_biasRow m ρ c, HostSide.head_weights2 m ρ c,
    Cert.Bridge.inColumn', hb, hw]
  exact (Cert.ReferenceIdeal.RefLayers.head2_stage _ _ _ _ _ _ _ _).symm

end Cert.KernelIdeal.Outputs

end
-- ==== Proof.lean ====
/-
  The certificate of a two-layer graph convolution with two linear heads.

  Both programs compute, from the edge lists, the out- and in-degree factor of every node (the reciprocal square root
  of its edge count, clamped below at one); scale the features by the out-degree factor and sum, for every node, the
  scaled rows of its in-neighbours; scale by the in-degree factor, multiply by the first weight matrix, add the first
  bias and clamp at zero; multiply by the second weight matrix, scale by the out-degree factor and aggregate again;
  scale by the in-degree factor, add the second bias and clamp at zero; and read the clamped rows out through two
  weight matrices.  The kernel does the dense steps in two blocked regions, 2000 rows at a time, with matrix products
  accumulated from zero and with changes of float format around them and around the gathers; the reference does them
  on whole arrays.  On the extended reals a change of format is the identity, a matrix product into zero and the
  host's product are the same inner products, each dense step reads one row at a time — so a block of the result is
  the same formula of the whole arrays — and the aggregations are the same host operations on equal arrays.  No
  algebraic law beyond these identities is used, and the inputs' finiteness is not needed.

  The frames of the two programs with kernels are the generated ones; the reference's frame is its generated run with
  the results dropped; the idealization rewrote nothing, so that conjunct is trivial.
-/
import proofs.«121842_j23605140259107_2_alg».proof.Defs
import proofs.«121842_j23605140259107_2_alg».proof.Proof.Gen.Kernel
import proofs.«121842_j23605140259107_2_alg».proof.Proof.Gen.Kernel.Skeleton
import proofs.«121842_j23605140259107_2_alg».proof.Proof.Gen.Kernel.Launch
import proofs.«121842_j23605140259107_2_alg».proof.Proof.Gen.Kernel.Points
import proofs.«121842_j23605140259107_2_alg».proof.Proof.Gen.Kernel.Frame
import proofs.«121842_j23605140259107_2_alg».proof.Proof.Gen.KernelIdeal
import proofs.«121842_j23605140259107_2_alg».proof.Proof.Gen.KernelIdeal.Skeleton
import proofs.«121842_j23605140259107_2_alg».proof.Proof.Gen.KernelIdeal.Launch
import proofs.«121842_j23605140259107_2_alg».proof.Proof.Gen.KernelIdeal.Points
import proofs.«121842_j23605140259107_2_alg».proof.Proof.Gen.KernelIdeal.Frame
import proofs.«121842_j23605140259107_2_alg».proof.Proof.Gen.ReferenceIdeal
import proofs.«121842_j23605140259107_2_alg».proof.Proof.Gen.ReferenceIdeal.Run
import proofs.«121842_j23605140259107_2_alg».proof.Proof.Gen.ReferenceIdeal.Read
import proofs.«121842_j23605140259107_2_alg».proof.Proof.Gen.Pre_finite_inputs
import proofs.«121842_j23605140259107_2_alg».proof.Proof.KernelRun
import proofs.«121842_j23605140259107_2_alg».proof.Proof.Outputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the reference's three result stages of the (shared) arguments. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)), ?_, ?_⟩
  · exact (θ_run Cert.KernelIdeal.defs _ _).mono (fun r h c =>
      ⟨(h c).1.trans (Cert.KernelIdeal.Outputs.result0 m ρ c),
       (h c).2.1.trans (Cert.KernelIdeal.Outputs.result1 m ρ c),
       (h c).2.2.1.trans (Cert.KernelIdeal.Outputs.result2 m ρ c),
       (h c).2.2.2⟩) (Cert.KernelIdeal.RunOut.run_results m ρ)
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8⟩ := hagree c
    refine ⟨?_, ?_, ?_, hargs⟩
    · rw [h0, Cert.ReferenceIdeal.Read.val_main_v52_eq, e0, e1, e2, e3, e4, e5, e6]
    · rw [h1, Cert.ReferenceIdeal.Read.val_main_v54_eq, e0, e1, e2, e3, e4, e5, e6, e7]
    · rw [h2, Cert.ReferenceIdeal.Read.val_main_v56_eq, e0, e1, e2, e3, e4, e5, e6, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
